-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x64 : Shape := ⟨2, ![128, 64]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S10000x128 : Shape := ⟨2, ![10000, 128]⟩
abbrev S100000x64 : Shape := ⟨2, ![100000, 64]⟩
abbrev S10000x64 : Shape := ⟨2, ![10000, 64]⟩

abbrev nBuf : Space → Nat
  | .hbm => 43
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v16) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x64 : Shape := ⟨2, ![128, 64]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S1600000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with EVERY unscoped buffer read at the end.

  The program is two pipelined matrix products with stretches of host operations before each.  The
  buffer contents at the four segment boundaries are a fold through the program: the launch memory,
  then the first host stretch applied, then the first product's output array at what its write-backs
  leave, then the second host stretch applied, then the second product's output array at what its
  write-backs leave.  Here the library's theorem for a run of host segments and kernel regions is
  applied to those segments with a post that keeps the last boundary's contents at every unscoped
  buffer, the result among them; the argument arrays are read off the same fold.
-/
import proofs.«108980_j14602888806986_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in the final memory every unscoped
    buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array is an unscoped buffer. -/
theorem result_mem_uc : (Proc.devRef .tc main_v31 : DevRef τ sig) ∈ Pipeline.ucRefs τ sig :=
  mem_uc main_v31 (by decide)

/-- The run with the result array named: after it the result buffer holds the second product's output
    array as its write-backs leave it, and the five argument arrays are as launched. -/
theorem run_result : θ_run defs (onTc (τ := τ) (main (F := F))) ⟨m, fun _ => 0, ρ⟩ (fun r => ∀ c : Dev nD,
      r.2.mem ((c.tc : Thread nD τ).loc main_v31) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ result_mem_uc).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)
    (run_all m ρ)

end Cert.KernelIdeal.RunValue

end
-- ==== Proof.MatmulBlock.lean ====
/-
  What one grid step of each pipelined product computes, read at an entry of its output block.

  A step loads a 10000 × 128 block of rows and the whole weight matrix, narrows both to bf16 (at the
  ideal values a change of format is the identity), multiplies them on the matrix unit into a zero
  accumulator, and (first product only) clamps below at zero.  Entry (p, q) of the stored block is
  therefore the sum over k of x(p, k) · w(k, q), clamped for the first product.
-/
import proofs.«108980_j14602888806986_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Blocks

open Idealize.ShloMosaic Idealize.ShloMosaic.ValueIdx Cert.KernelIdeal Cert.KernelIdeal.Gen
open scoped BigOperators

/-! ## The contraction's operand indices, coordinate by coordinate -/

/-- The first product's record: rows × 128 times 128 × 128. -/
abbrev dHid := dot_S10000x128_S128x128_S10000x128_1_0_0_1_n_n
/-- The second product's record: rows × 128 times 128 × 64. -/
abbrev dCls := dot_S10000x128_S128x64_S10000x64_1_0_0_1_n_n

theorem hid_lhs_row (i : S10000x128.Idx) (q : dHid.contr.Idx) : (dHid.lhsIdx i q 0).val = (i 0).val := by
  unfold DotDims.lhsIdx
  rw [dif_neg (show ¬(0 : Fin S10000x128.rank) ∈ dHid.lhsBatch by decide), dif_pos (show (0 : Fin S10000x128.rank) ∈ dHid.lhsNonContracting by decide)]
  rfl
theorem hid_lhs_k (i : S10000x128.Idx) (q : dHid.contr.Idx) : (dHid.lhsIdx i q 1).val = (q ⟨0, by decide⟩).val :=
  dHid.lhsIdx_val_of_single rfl i q
theorem hid_rhs_k (i : S10000x128.Idx) (q : dHid.contr.Idx) : (dHid.rhsIdx i q 0).val = (q ⟨0, by decide⟩).val :=
  dHid.rhsIdx_val_of_single rfl i q
theorem hid_rhs_col (i : S10000x128.Idx) (q : dHid.contr.Idx) : (dHid.rhsIdx i q 1).val = (i 1).val := by
  unfold DotDims.rhsIdx
  rw [dif_neg (show ¬(1 : Fin S128x128.rank) ∈ dHid.rhsBatch by decide), dif_pos (show (1 : Fin S128x128.rank) ∈ dHid.rhsNonContracting by decide)]
  rfl

theorem cls_lhs_row (i : S10000x64.Idx) (q : dCls.contr.Idx) : (dCls.lhsIdx i q 0).val = (i 0).val := by
  unfold DotDims.lhsIdx
  rw [dif_neg (show ¬(0 : Fin S10000x128.rank) ∈ dCls.lhsBatch by decide), dif_pos (show (0 : Fin S10000x128.rank) ∈ dCls.lhsNonContracting by decide)]
  rfl
theorem cls_lhs_k (i : S10000x64.Idx) (q : dCls.contr.Idx) : (dCls.lhsIdx i q 1).val = (q ⟨0, by decide⟩).val :=
  dCls.lhsIdx_val_of_single rfl i q
theorem cls_rhs_k (i : S10000x64.Idx) (q : dCls.contr.Idx) : (dCls.rhsIdx i q 0).val = (q ⟨0, by decide⟩).val :=
  dCls.rhsIdx_val_of_single rfl i q
theorem cls_rhs_col (i : S10000x64.Idx) (q : dCls.contr.Idx) : (dCls.rhsIdx i q 1).val = (i 1).val := by
  unfold DotDims.rhsIdx
  rw [dif_neg (show ¬(1 : Fin S128x64.rank) ∈ dCls.rhsBatch by decide), dif_pos (show (1 : Fin S128x64.rank) ∈ dCls.rhsNonContracting by decide)]
  rfl

/-! ## The matrix unit's product into a zero accumulator, at an entry -/

/-- Entry (p, q) of the first product of a block: the sum over k of a(p, k) · b(k, q). -/
theorem hid_matmul_apply (a : FVec Ideal S10000x128 .bf16) (b : FVec Ideal S128x128 .bf16) (p : Fin 10000) (q : Fin 128) :
    matmul dHid none a b (constant S10000x128 .f32 0x00000000#32) (ix2 p q)
      = ∑ k : Fin 128, a (ix2 p k) * b (ix2 k q) := by
  simp only [matmul]
  rw [Ideal.matmul_constant_zero_apply, ← Equiv.sum_comp (contrEquiv1 dHid 128 rfl rfl).symm]
  refine Finset.sum_congr rfl fun k _ => ?_
  have hk := contrEquiv1_symm_val dHid 128 rfl rfl k
  have el : dHid.lhsIdx (ix2 p q) ((contrEquiv1 dHid 128 rfl rfl).symm k) = ix2 p k := funext fun d => Fin.ext (by
    match d with
    | ⟨0, _⟩ => exact hid_lhs_row _ _
    | ⟨1, _⟩ => exact (hid_lhs_k _ _).trans hk)
  have er : dHid.rhsIdx (ix2 p q) ((contrEquiv1 dHid 128 rfl rfl).symm k) = ix2 k q := funext fun d => Fin.ext (by
    match d with
    | ⟨0, _⟩ => exact (hid_rhs_k _ _).trans hk
    | ⟨1, _⟩ => exact hid_rhs_col _ _)
  rw [el, er]

/-- Entry (p, q) of the second product of a block: the sum over k of a(p, k) · b(k, q). -/
theorem cls_matmul_apply (a : FVec Ideal S10000x128 .bf16) (b : FVec Ideal S128x64 .bf16) (p : Fin 10000) (q : Fin 64) :
    matmul dCls none a b (constant S10000x64 .f32 0x00000000#32) (ix2 p q)
      = ∑ k : Fin 128, a (ix2 p k) * b (ix2 k q) := by
  simp only [matmul]
  rw [Ideal.matmul_constant_zero_apply, ← Equiv.sum_comp (contrEquiv1 dCls 128 rfl rfl).symm]
  refine Finset.sum_congr rfl fun k _ => ?_
  have hk := contrEquiv1_symm_val dCls 128 rfl rfl k
  have el : dCls.lhsIdx (ix2 p q) ((contrEquiv1 dCls 128 rfl rfl).symm k) = ix2 p k := funext fun d => Fin.ext (by
    match d with
    | ⟨0, _⟩ => exact cls_lhs_row _ _
    | ⟨1, _⟩ => exact (cls_lhs_k _ _).trans hk)
  have er : dCls.rhsIdx (ix2 p q) ((contrEquiv1 dCls 128 rfl rfl).symm k) = ix2 k q := funext fun d => Fin.ext (by
    match d with
    | ⟨0, _⟩ => exact (cls_rhs_k _ _).trans hk
    | ⟨1, _⟩ => exact cls_rhs_col _ _)
  rw [el, er]

/-! ## The stored block at an entry -/

/-- The first product's stored block at (p, q): the clamped sum over k of x(p, k) · w(k, q). -/
theorem hid_block_apply (x : Vec Ideal S10000x128 .f32) (w : Vec Ideal S128x128 .f32) (p : Fin 10000) (q : Fin 128) :
    k0_pay1 (F := Ideal) x w (ix2 p q)
      = max (∑ k : Fin 128, x (ix2 p k) * w (ix2 k q)) (Ideal.ofBits .f32 0x00000000#32) := by
  unfold k0_pay1
  refine (maximumf_apply _ _ _).trans ?_
  refine congrArg (fun s => max s (Ideal.ofBits .f32 0x00000000#32)) ?_
  refine (hid_matmul_apply _ _ p q).trans ?_
  refine Finset.sum_congr rfl fun k _ => ?_
  rw [truncf_apply, truncf_apply, shapeCast_self]

/-- The second product's stored block at (p, q): the sum over k of x(p, k) · w(k, q). -/
theorem cls_block_apply (x : Vec Ideal S10000x128 .f32) (w : Vec Ideal S128x64 .f32) (p : Fin 10000) (q : Fin 64) :
    k1_pay1 (F := Ideal) x w (ix2 p q) = ∑ k : Fin 128, x (ix2 p k) * w (ix2 k q) := by
  unfold k1_pay1
  refine (cls_matmul_apply _ _ p q).trans ?_
  refine Finset.sum_congr rfl fun k _ => ?_
  rw [truncf_apply, truncf_apply, shapeCast_self]

/-- The same at any entry `j` of the block, its two coordinates named. -/
theorem hid_block_at (x : Vec Ideal S10000x128 .f32) (w : Vec Ideal S128x128 .f32) (j : S10000x128.Idx) :
    k0_pay1 (F := Ideal) x w j
      = max (∑ k : Fin 128, x (ix2 (n0 := 10000) (n1 := 128) ⟨(j 0).val, (j 0).isLt⟩ k)
          * w (ix2 (n0 := 128) (n1 := 128) k ⟨(j 1).val, (j 1).isLt⟩)) (Ideal.ofBits .f32 0x00000000#32) := by
  obtain ⟨p, q, rfl⟩ : ∃ (p : Fin 10000) (q : Fin 128), j = ix2 p q := ⟨j 0, j 1, eq_ix2 j⟩
  exact hid_block_apply x w p q

theorem cls_block_at (x : Vec Ideal S10000x128 .f32) (w : Vec Ideal S128x64 .f32) (j : S10000x64.Idx) :
    k1_pay1 (F := Ideal) x w j
      = ∑ k : Fin 128, x (ix2 (n0 := 10000) (n1 := 128) ⟨(j 0).val, (j 0).isLt⟩ k)
          * w (ix2 (n0 := 128) (n1 := 64) k ⟨(j 1).val, (j 1).isLt⟩) := by
  obtain ⟨p, q, rfl⟩ : ∃ (p : Fin 10000) (q : Fin 64), j = ix2 p q := ⟨j 0, j 1, eq_ix2 j⟩
  exact cls_block_apply x w p q

end Cert.KernelIdeal.Blocks

end
-- ==== Proof.Dense.lean ====
/-
  The mathematics of the two dense stages, stated once over the literal shapes and over extended
  reals, with no program in sight.

  A graph-convolution layer first aggregates node features along the edges (a gather, a scaling by
  the edge weights and a scatter-add: done by the same host operations in both programs, and never
  opened here) and then multiplies the aggregate by a weight matrix.  The only arithmetic that the
  two programs arrange differently is that matrix product: entry (r, c) of the product of a
  100000 × 128 array with a 128 × n matrix is the sum over k of a(r, k) · w(k, c).  The first layer
  clamps the product below at the value of the zero word; the second layer is the bare product.
-/
import Idealize.ShloMosaic.PureOps.Ideal
import Idealize.ShloMosaic.Lib.ValueIdx

noncomputable section

namespace Cert.Dense

open Idealize.ShloMosaic Idealize.ShloMosaic.ValueIdx
open scoped BigOperators

/-- Node rows by 128 features. -/
abbrev Rows : Shape := ⟨2, ![100000, 128]⟩
/-- The first layer's weights. -/
abbrev Hid : Shape := ⟨2, ![128, 128]⟩
/-- The second layer's weights. -/
abbrev Cls : Shape := ⟨2, ![128, 64]⟩
/-- Node rows by 64 classes. -/
abbrev Out : Shape := ⟨2, ![100000, 64]⟩

/-- Row `r`, feature `k` of a node array. -/
abbrev atRow (r : Fin 100000) (k : Fin 128) : Rows.Idx := ix2 (n0 := 100000) (n1 := 128) r k
/-- Row `k`, column `c` of the first layer's weights. -/
abbrev atHid (k : Fin 128) (c : Fin 128) : Hid.Idx := ix2 (n0 := 128) (n1 := 128) k c
/-- Row `k`, column `c` of the second layer's weights. -/
abbrev atCls (k : Fin 128) (c : Fin 64) : Cls.Idx := ix2 (n0 := 128) (n1 := 64) k c

/-- The first layer's product: entry (r, c) is the sum over k of a(r, k) · w(k, c). -/
def prodHid (a : Rows.Idx → EReal) (w : Hid.Idx → EReal) : Rows.Idx → EReal := fun i =>
  ∑ k : Fin 128, a (atRow ⟨(i 0).val, (i 0).isLt⟩ k) * w (atHid k ⟨(i 1).val, (i 1).isLt⟩)

/-- The first layer: the product clamped below at the value of the zero word. -/
def layerHid (a : Rows.Idx → EReal) (w : Hid.Idx → EReal) : Rows.Idx → EReal := fun i =>
  max (prodHid a w i) (Ideal.ofBits .f32 0x00000000#32)

/-- The second layer's product: entry (r, c) is the sum over k of a(r, k) · w(k, c). -/
def prodCls (a : Rows.Idx → EReal) (w : Cls.Idx → EReal) : Out.Idx → EReal := fun i =>
  ∑ k : Fin 128, a (atRow ⟨(i 0).val, (i 0).isLt⟩ k) * w (atCls k ⟨(i 1).val, (i 1).isLt⟩)

end Cert.Dense

end
-- ==== Proof.KernelArray.lean ====
/-
  From blocks to arrays: what each pipelined product leaves in its output array, for ANY contents
  the region is entered with.

  Grid step `t` (of ten) reads rows 10000·t … 10000·t + 9999 of the left operand, the whole weight
  matrix, and writes the same rows of the output.  So what step `t` writes back is block `t` of ONE
  whole-array function of the operands (the dense layer of `Dense`), the ten blocks tile the output
  array, and the array after the region is that function.
-/
import proofs.«108980_j14602888806986_1_alg».proof.Proof.Gen.KernelIdeal.Frame
import proofs.«108980_j14602888806986_1_alg».proof.Proof.MatmulBlock
import proofs.«108980_j14602888806986_1_alg».proof.Proof.Dense

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-! ## The first product (region 0) -/

/-- The printed index maps over the ten steps: the row block moves with the step, everything else sits at block 0. -/
theorem idx_hid : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What step `t` writes back is block `t` of the dense layer of the arrays the region finds: the
    left operand's block and the output's block are the same rows, and the weight's block is the
    whole matrix. -/
theorem flushed_hid (c : Dev nD) (t : Fin cfg0.N) :
    (dat0 V c).flushed 2 t
      = ((cfg0.win 2).blk t).view.read (Elt Ideal) (Dense.layerHid (V c main_v16) (V c main_arg3)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  obtain ⟨e0, e1, e2, e3, e4, e5⟩ := idx_hid t
  funext j
  refine (Blocks.hid_block_at (iblk0 V c 0 t) (iblk0 V c 1 t) j).trans ?_
  rw [View.read_apply]
  unfold Dense.layerHid Dense.prodHid
  refine congrArg (fun s => max s (Ideal.ofBits .f32 0x00000000#32)) (Finset.sum_congr rfl fun k _ => ?_)
  have hA : iblk0 V c 0 t (ix2 (n0 := 10000) (n1 := 128) ⟨(j 0).val, (j 0).isLt⟩ k)
      = V c main_v16 (Dense.atRow ⟨(((cfg0.win 2).blk t).view.emb j 0).val, (((cfg0.win 2).blk t).view.emb j 0).isLt⟩ k) := by
    show V c main_v16 (((cfg0.win 0).blk t).view.emb (ix2 (n0 := 10000) (n1 := 128) ⟨(j 0).val, (j 0).isLt⟩ k)) = _
    refine congrArg (V c main_v16) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hW : iblk0 V c 1 t (ix2 (n0 := 128) (n1 := 128) k ⟨(j 1).val, (j 1).isLt⟩)
      = V c main_arg3 (Dense.atHid k ⟨(((cfg0.win 2).blk t).view.emb j 1).val, (((cfg0.win 2).blk t).view.emb j 1).isLt⟩) := by
    show V c main_arg3 (((cfg0.win 1).blk t).view.emb (ix2 (n0 := 128) (n1 := 128) k ⟨(j 1).val, (j 1).isLt⟩)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hA, hW]

/-- An index of the output array is in step `t`'s block iff each coordinate is in the block's range on its axis. -/
theorem mem_blk_hid (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v17).slice (win0_2.rect t)).set ↔ _
  rw [View.set_slice_whole, Rect.mem_set_unit]
  exact Iff.rfl

/-- The ten blocks tile the output array: row `r` is in the block of step `r / 10000`. -/
theorem cover_hid (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have ht : (i 0).val / 10000 < grid0.N := by omega
  obtain ⟨e0, e1, e2, e3, e4, e5⟩ := idx_hid ⟨(i 0).val / 10000, ht⟩
  refine ⟨⟨(i 0).val / 10000, ht⟩, flush0_2 _, ?_⟩
  rw [mem_blk_hid]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- The output array after the region is the dense layer of the arrays the region was entered with. -/
theorem final_hid (c : Dev nD) :
    (dat0 V c).arrAt 2 cfg0.N = Dense.layerHid (V c main_v16) (V c main_arg3) :=
  (dat0 V c).arrAt_eq_of_cover 2 _ (fun t _ => flushed_hid V c t) cover_hid

/-! ## The second product (region 1) -/

/-- The printed index maps over the ten steps: the row block moves with the step, everything else sits at block 0. -/
theorem idx_cls : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What step `t` writes back is block `t` of the dense layer of the arrays the region finds: the
    left operand's block and the output's block are the same rows, and the weight's block is the
    whole matrix. -/
theorem flushed_cls (c : Dev nD) (t : Fin cfg1.N) :
    (dat1 V c).flushed 2 t
      = ((cfg1.win 2).blk t).view.read (Elt Ideal) (Dense.prodCls (V c main_v30) (V c main_arg4)) := by
  show (cfg1.win 2).cut (grid1.coords t) ((dat1 V c).after 2 t) = _
  rw [after1_2]
  unfold out1_2
  rw [View.canon_unit_zero zeros2]
  simp only [View.ld_unit_zero (S := S10000x128) zeros2, View.ld_unit_zero (S := S128x64) zeros2]
  obtain ⟨e0, e1, e2, e3, e4, e5⟩ := idx_cls t
  funext j
  refine (Blocks.cls_block_at (iblk1 V c 0 t) (iblk1 V c 1 t) j).trans ?_
  rw [View.read_apply]
  unfold Dense.prodCls
  refine Finset.sum_congr rfl fun k _ => ?_
  have hA : iblk1 V c 0 t (ix2 (n0 := 10000) (n1 := 128) ⟨(j 0).val, (j 0).isLt⟩ k)
      = V c main_v30 (Dense.atRow ⟨(((cfg1.win 2).blk t).view.emb j 0).val, (((cfg1.win 2).blk t).view.emb j 0).isLt⟩ k) := by
    show V c main_v30 (((cfg1.win 0).blk t).view.emb (ix2 (n0 := 10000) (n1 := 128) ⟨(j 0).val, (j 0).isLt⟩ k)) = _
    refine congrArg (V c main_v30) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have hW : iblk1 V c 1 t (ix2 (n0 := 128) (n1 := 64) k ⟨(j 1).val, (j 1).isLt⟩)
      = V c main_arg4 (Dense.atCls k ⟨(((cfg1.win 2).blk t).view.emb j 1).val, (((cfg1.win 2).blk t).view.emb j 1).isLt⟩) := by
    show V c main_arg4 (((cfg1.win 1).blk t).view.emb (ix2 (n0 := 128) (n1 := 64) k ⟨(j 1).val, (j 1).isLt⟩)) = _
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [hA, hW]

/-- An index of the output array is in step `t`'s block iff each coordinate is in the block's range on its axis. -/
theorem mem_blk_cls (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v31).slice (win1_2.rect t)).set ↔ _
  rw [View.set_slice_whole, Rect.mem_set_unit]
  exact Iff.rfl

/-- The ten blocks tile the output array: row `r` is in the block of step `r / 10000`. -/
theorem cover_cls (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < grid1.N := by omega
  obtain ⟨e0, e1, e2, e3, e4, e5⟩ := idx_cls ⟨(i 0).val / 10000, ht⟩
  refine ⟨⟨(i 0).val / 10000, ht⟩, flush1_2 _, ?_⟩
  rw [mem_blk_cls]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- The output array after the region is the dense layer of the arrays the region was entered with. -/
theorem final_cls (c : Dev nD) :
    (dat1 V c).arrAt 2 cfg1.N = Dense.prodCls (V c main_v30) (V c main_arg4) :=
  (dat1 V c).arrAt_eq_of_cover 2 _ (fun t _ => flushed_cls V c t) cover_cls

end Cert.KernelIdeal.Arrays

end
-- ==== Proof.KernelHost.lean ====
/-
  The host side of the idealized kernel program, and the result of the whole run as ONE function of
  the five argument arrays.

  Before each pipelined product the program aggregates node features along the edges: edge e with
  source s(e), destination d(e) and weight v(e) contributes v(e) · feat[s(e), ·] to row d(e) (a
  negative source index is first wrapped by the number of nodes; the gather and the scatter-add treat
  out-of-range indices in their own fixed way).  That aggregation is the same composition of host
  operations in both programs, so it is wrapped in one definition, `aggregate`, which no proof
  opens.  The first product is entered with the aggregate of the node features; the second with the
  aggregate of the first layer's output.  Hence the result: the second product of the aggregate of
  the first dense layer of the aggregate of the features.
-/
import proofs.«108980_j14602888806986_1_alg».proof.Proof.Gen.KernelIdeal.Frame
import proofs.«108980_j14602888806986_1_alg».proof.Proof.KernelArray
import proofs.«108980_j14602888806986_1_alg».proof.Proof.Dense
import Idealize.ShloMosaic.Lib.StableHlo.Run
import Idealize.ShloMosaic.PureOps.Ideal

set_option maxRecDepth 16384

noncomputable section

namespace Cert.KernelIdeal.Edges

open Idealize.ShloMosaic Idealize.ShloMosaic.TcCoe Idealize.SL.Sem Idealize.ShloMosaic.StableHlo
open Cert.KernelIdeal Cert.KernelIdeal.Gen

/-- The destination node of each edge: row 0 of the edge list. -/
def dstOf (e : IVec S2x1600000 32) : IVec S1600000 32 :=
  shapeCast S1600000 (extractStridedSlice S1x1600000 ![0, 0] e slices_S2x1600000_S1x1600000_0_0) shapeCasts_S1x1600000_S1600000

/-- The source node of each edge: row 1 of the edge list. -/
def srcOf (e : IVec S2x1600000 32) : IVec S1600000 32 :=
  shapeCast S1600000 (extractStridedSlice S1x1600000 ![1, 0] e slices_S2x1600000_S1x1600000_1_0) shapeCasts_S1x1600000_S1600000

/-- The edge aggregation: gather the source rows (a negative source index wrapped by the number of
    nodes), scale each by its edge's weight, and scatter-add into the destination rows of a zero array. -/
def aggregate (feat : FVec Ideal S100000x128 .f32) (src dst : IVec S1600000 32) (wt : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (broadcastInDim S1600000x128 ![0, 1] bcast_S1600000x1_S1600000x128_0_1
        (broadcastInDim S1600000x1 ![0] bcast_S1600000_S1600000x1_0 wt))
      (Host.gather gather_S100000x128_S1600000x1_S1600000x128_1_0_n_n_0_1_1128 feat
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))

/-- The whole computation: two layers, each an aggregation followed by a dense stage. -/
def network (x : FVec Ideal S100000x128 .f32) (e : IVec S2x1600000 32) (wt : FVec Ideal S1600000 .f32)
    (w1 : FVec Ideal S128x128 .f32) (w2 : FVec Ideal S128x64 .f32) : FVec Ideal S100000x64 .f32 :=
  Dense.prodCls (aggregate (Dense.layerHid (aggregate x (srcOf e) (dstOf e) wt) w1) (srcOf e) (dstOf e) wt) w2

variable (m : (ℓ : Loc nD τ sig) → Buf (Elt Ideal) ℓ) (ρ : Dev nD → PrngReg)

/-! ## What the first product is entered with -/

set_option maxHeartbeats 1000000 in
/-- The first product's left operand is the aggregate of the node features. -/
theorem entry_hid_rows (c : Dev nD) :
    V1 m ρ c main_v16
      = aggregate (m ((c : Thread nD τ).loc main_arg0)) (srcOf (m ((c : Thread nD τ).loc main_arg1)))
          (dstOf (m ((c : Thread nD τ).loc main_arg1))) (m ((c : Thread nD τ).loc main_arg2)) := by
  show StableHlo.after hostOps0 (W0 m ρ c) (Proc.devRef .tc main_v16) = _
  after_results_simp
  rfl

set_option maxHeartbeats 1000000 in
/-- Its right operand is the first weight matrix as launched. -/
theorem entry_hid_weights (c : Dev nD) : V1 m ρ c main_arg3 = m ((c : Thread nD τ).loc main_arg3) := by
  show StableHlo.after hostOps0 (W0 m ρ c) (Proc.devRef .tc main_arg3) = _
  after_results_simp <;> rfl

/-! ## What the first product leaves, and what the second is entered with -/

/-- After the first product its output array holds the first dense layer of the aggregate. -/
theorem hidden (c : Dev nD) :
    W2 m ρ c (Proc.devRef .tc main_v17)
      = Dense.layerHid (aggregate (m ((c : Thread nD τ).loc main_arg0)) (srcOf (m ((c : Thread nD τ).loc main_arg1)))
          (dstOf (m ((c : Thread nD τ).loc main_arg1))) (m ((c : Thread nD τ).loc main_arg2))) (m ((c : Thread nD τ).loc main_arg3)) := by
  refine (W2_arr m ρ c 2).trans ((Arrays.final_hid (V1 m ρ) c).trans ?_)
  rw [entry_hid_rows, entry_hid_weights]

set_option maxHeartbeats 1000000 in
/-- The source indices the first host stretch computed are still there after the first product. -/
theorem kept_src (c : Dev nD) : W2 m ρ c (Proc.devRef .tc main_v3) = srcOf (m ((c : Thread nD τ).loc main_arg1)) := by
  refine (W2_of_ne m ρ c main_v3 (by decide)).trans ?_
  show StableHlo.after hostOps0 (W0 m ρ c) (Proc.devRef .tc main_v3) = _
  after_results_simp
  rfl

set_option maxHeartbeats 1000000 in
/-- So are the destination indices … -/
theorem kept_dst (c : Dev nD) : W2 m ρ c (Proc.devRef .tc main_v1) = dstOf (m ((c : Thread nD τ).loc main_arg1)) := by
  refine (W2_of_ne m ρ c main_v1 (by decide)).trans ?_
  show StableHlo.after hostOps0 (W0 m ρ c) (Proc.devRef .tc main_v1) = _
  after_results_simp
  rfl

set_option maxHeartbeats 1000000 in
/-- … and the edge weights. -/
theorem kept_weights (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results_simp <;> rfl

set_option maxHeartbeats 1000000 in
/-- The second product's left operand is the aggregate of the first layer's output. -/
theorem entry_cls_rows (c : Dev nD) :
    V3 m ρ c main_v30
      = aggregate (W2 m ρ c (Proc.devRef .tc main_v17)) (W2 m ρ c (Proc.devRef .tc main_v3))
          (W2 m ρ c (Proc.devRef .tc main_v1)) (W2 m ρ c (Proc.devRef .tc main_arg2)) := by
  show StableHlo.after hostOps1 (W2 m ρ c) (Proc.devRef .tc main_v30) = _
  after_results_simp
  rfl

set_option maxHeartbeats 1000000 in
/-- Its right operand is the second weight matrix as launched. -/
theorem entry_cls_weights (c : Dev nD) : V3 m ρ c main_arg4 = m ((c : Thread nD τ).loc main_arg4) := by
  show StableHlo.after hostOps1 (W2 m ρ c) (Proc.devRef .tc main_arg4) = _
  after_results_simp
  refine (W2_of_ne m ρ c main_arg4 (by decide)).trans ?_
  show StableHlo.after hostOps0 (W0 m ρ c) (Proc.devRef .tc main_arg4) = _
  after_results_simp <;> rfl

/-! ## The result -/

/-- After the second product its output array holds the network's value at the launch arguments. -/
theorem result (c : Dev nD) :
    (dat1 (V3 m ρ) c).arrAt 2 cfg1.N
      = network (m ((c : Thread nD τ).loc main_arg0)) (m ((c : Thread nD τ).loc main_arg1)) (m ((c : Thread nD τ).loc main_arg2))
          (m ((c : Thread nD τ).loc main_arg3)) (m ((c : Thread nD τ).loc main_arg4)) := by
  refine (Arrays.final_cls (V3 m ρ) c).trans ?_
  rw [entry_cls_rows, entry_cls_weights, hidden, kept_src, kept_dst, kept_weights]
  rfl

end Cert.KernelIdeal.Edges

end
-- ==== Proof.RefBridge.lean ====
/-
  The idealized reference computes the same network.

  The reference is one straight line of host operations: the same two edge aggregations, each
  followed by a whole-array `dot_general` (and, after the first, a maximum with a zero array).  At
  the ideal values a `dot_general` that contracts the 128 features is, entry by entry, the sum over
  k of a(r, k) · w(k, c): the dense stage of `Dense`.  The aggregations are, operation for
  operation, the kernel program's `aggregate`.
-/
import proofs.«108980_j14602888806986_1_alg».proof.Proof.Gen.ReferenceIdeal.Read
import proofs.«108980_j14602888806986_1_alg».proof.Proof.KernelHost
import proofs.«108980_j14602888806986_1_alg».proof.Proof.Dense
import Idealize.ShloMosaic.Lib.ValueIdx
import Idealize.ShloMosaic.PureOps.Ideal.Laws

set_option maxRecDepth 16384

noncomputable section

namespace Cert.ReferenceIdeal.Bridge

open Idealize.ShloMosaic Idealize.ShloMosaic.ValueIdx
open Cert.ReferenceIdeal Cert.ReferenceIdeal.Gen Cert.ReferenceIdeal.Read
open Cert.KernelIdeal.Edges (aggregate srcOf dstOf network)
open scoped BigOperators

/-- The first layer's whole-array product record. -/
abbrev dHid := dot_S100000x128_S128x128_S100000x128_1_0_0_1_n_n
/-- The second layer's whole-array product record. -/
abbrev dCls := dot_S100000x128_S128x64_S100000x64_1_0_0_1_n_n

/-- The first layer's `dot_general` is the dense product, entry by entry. -/
theorem dot_hid_eq (a : FVec Ideal S100000x128 .f32) (w : FVec Ideal S128x128 .f32) :
    Host.dotGeneral dHid none a w = Dense.prodHid a w := by
  funext i
  simp only [Host.dotGeneral]
  rw [Ideal.dotGeneral_apply, ← Equiv.sum_comp (contrEquiv1 dHid 128 rfl rfl).symm]
  unfold Dense.prodHid
  refine Finset.sum_congr rfl fun k _ => ?_
  have hk := contrEquiv1_symm_val dHid 128 rfl rfl k
  have el : dHid.lhsIdx i ((contrEquiv1 dHid 128 rfl rfl).symm k) = Dense.atRow ⟨(i 0).val, (i 0).isLt⟩ k := funext fun d => Fin.ext (by
    match d with
    | ⟨0, _⟩ => exact lhs_main_v17_0 _ _
    | ⟨1, _⟩ => exact (lhs_main_v17_1 _ _).trans hk)
  have er : dHid.rhsIdx i ((contrEquiv1 dHid 128 rfl rfl).symm k) = Dense.atHid k ⟨(i 1).val, (i 1).isLt⟩ := funext fun d => Fin.ext (by
    match d with
    | ⟨0, _⟩ => exact (rhs_main_v17_0 _ _).trans hk
    | ⟨1, _⟩ => exact rhs_main_v17_1 _ _)
  rw [el, er]

/-- The second layer's `dot_general` is the dense product, entry by entry. -/
theorem dot_cls_eq (a : FVec Ideal S100000x128 .f32) (w : FVec Ideal S128x64 .f32) :
    Host.dotGeneral dCls none a w = Dense.prodCls a w := by
  funext i
  simp only [Host.dotGeneral]
  rw [Ideal.dotGeneral_apply, ← Equiv.sum_comp (contrEquiv1 dCls 128 rfl rfl).symm]
  unfold Dense.prodCls
  refine Finset.sum_congr rfl fun k _ => ?_
  have hk := contrEquiv1_symm_val dCls 128 rfl rfl k
  have el : dCls.lhsIdx i ((contrEquiv1 dCls 128 rfl rfl).symm k) = Dense.atRow ⟨(i 0).val, (i 0).isLt⟩ k := funext fun d => Fin.ext (by
    match d with
    | ⟨0, _⟩ => exact lhs_main_v32_0 _ _
    | ⟨1, _⟩ => exact (lhs_main_v32_1 _ _).trans hk)
  have er : dCls.rhsIdx i ((contrEquiv1 dCls 128 rfl rfl).symm k) = Dense.atCls k ⟨(i 1).val, (i 1).isLt⟩ := funext fun d => Fin.ext (by
    match d with
    | ⟨0, _⟩ => exact (rhs_main_v32_0 _ _).trans hk
    | ⟨1, _⟩ => exact rhs_main_v32_1 _ _)
  rw [el, er]

variable (x0 : FVec Ideal S100000x128 .f32) (x1 : IVec S2x1600000 32) (x2 : FVec Ideal S1600000 .f32)
  (x3 : FVec Ideal S128x128 .f32) (x4 : FVec Ideal S128x64 .f32)

set_option maxHeartbeats 400000 in
/-- The reference's first aggregation is the kernel program's, operation for operation. -/
theorem agg_first : val_main_v16 (F := Ideal) x0 x1 x2 = aggregate x0 (srcOf x1) (dstOf x1) x2 := rfl

set_option maxHeartbeats 400000 in
/-- So is its second, applied to the first layer's output. -/
theorem agg_second :
    val_main_v31 (F := Ideal) x0 x1 x2 x3 = aggregate (val_main_v18 (F := Ideal) x0 x1 x2 x3) (srcOf x1) (dstOf x1) x2 := rfl

/-- The reference's first layer is the dense layer of the aggregate. -/
theorem first_layer :
    val_main_v18 (F := Ideal) x0 x1 x2 x3 = Dense.layerHid (aggregate x0 (srcOf x1) (dstOf x1) x2) x3 := by
  unfold val_main_v18 val_main_v17
  rw [dot_hid_eq, agg_first]
  rfl

/-- The reference's result is the network's value. -/
theorem result_eq : val_main_v32 (F := Ideal) x0 x1 x2 x3 x4 = network x0 x1 x2 x3 x4 := by
  unfold val_main_v32
  rw [dot_cls_eq, agg_second, first_layer]
  rfl

end Cert.ReferenceIdeal.Bridge

end
-- ==== Proof.lean ====
/-
  The certificate of the two-layer graph convolution: a kernel program whose two dense stages are
  pipelined matrix products on the matrix unit, against a reference that computes both stages with
  whole-array `dot_general`s.

  Each layer aggregates node features along the edges (gather the source rows, scale by the edge
  weight, scatter-add into the destination rows) and multiplies the aggregate by a weight matrix; the
  first layer then clamps below at zero.  The aggregation is the same host operations in both
  programs.  The kernel computes each product in ten row blocks of 10000 rows, narrowing its operands
  to bf16 on the way into the matrix unit; at the ideal values the narrowing is the identity, a block
  of the product is the same rows of the whole product, and an entry of either is the same sum over
  the 128 features, in the same order.  So both programs end with the same function of the five
  argument arrays, `Cert.KernelIdeal.Edges.network`, and no law of arithmetic beyond that is used: the
  precondition (finite inputs) is never opened.

  The modules: `Dense` (the dense stages as functions), `MatmulBlock` (one grid step's stored block
  at an entry), `KernelArray` (from the ten blocks to the output array), `KernelRun` (the kernel
  program's run with its result array read at the end), `KernelHost` (the host stretches, and the
  result as the network's value), `RefBridge` (the reference's term is the network's value).  The
  three frame claims are the generated frames and the generated reference run; the idealization
  rewrote nothing, so `preserves` is trivial.
-/
import proofs.«108980_j14602888806986_1_alg».proof.Defs
import proofs.«108980_j14602888806986_1_alg».proof.Proof.Gen.Kernel
import proofs.«108980_j14602888806986_1_alg».proof.Proof.Gen.Kernel.Skeleton
import proofs.«108980_j14602888806986_1_alg».proof.Proof.Gen.Kernel.Launch
import proofs.«108980_j14602888806986_1_alg».proof.Proof.Gen.Kernel.Points
import proofs.«108980_j14602888806986_1_alg».proof.Proof.Gen.Kernel.Frame
import proofs.«108980_j14602888806986_1_alg».proof.Proof.Gen.KernelIdeal
import proofs.«108980_j14602888806986_1_alg».proof.Proof.Gen.KernelIdeal.Skeleton
import proofs.«108980_j14602888806986_1_alg».proof.Proof.Gen.KernelIdeal.Launch
import proofs.«108980_j14602888806986_1_alg».proof.Proof.Gen.KernelIdeal.Points
import proofs.«108980_j14602888806986_1_alg».proof.Proof.Gen.KernelIdeal.Frame
import proofs.«108980_j14602888806986_1_alg».proof.Proof.Gen.ReferenceIdeal
import proofs.«108980_j14602888806986_1_alg».proof.Proof.Gen.ReferenceIdeal.Run
import proofs.«108980_j14602888806986_1_alg».proof.Proof.Gen.ReferenceIdeal.Read
import proofs.«108980_j14602888806986_1_alg».proof.Proof.Gen.Pre_finite_inputs
import proofs.«108980_j14602888806986_1_alg».proof.Proof.KernelRun
import proofs.«108980_j14602888806986_1_alg».proof.Proof.KernelHost
import proofs.«108980_j14602888806986_1_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The idealized reference is a line of host operations: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel program ends with the network's value at its launch arguments in its result
    array, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v31)
          = Cert.KernelIdeal.Edges.network
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨(h c).1.trans (Cert.KernelIdeal.Edges.result m ρ c), (h c).2⟩)
    (Cert.KernelIdeal.RunValue.run_result (F := Ideal) m ρ)

/-- From memories that agree on the arguments both idealized programs end with the network's value:
    the kernel program by its run, the reference because its composed term is that value. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Bridge.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
